-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x512x512 : Shape := ⟨3, ![4, 512, 512]⟩
abbrev S4x512 : Shape := ⟨2, ![4, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg4 : FVec F S4x512 .f32) (main_arg5 : FVec F S4x512x512 .f32) (main_arg6 : FVec F S4x512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  main_v33

def fn {F : FTy → Type} [FloatOps F] (main_arg0 : FVec F S32768x512 .f32) (main_arg1 : FVec F S32768x512 .f32) (main_arg2 : FVec F S32768x512 .f32) (main_arg3 : FVec F S4x512x512 .f32) (main_arg4 : FVec F S4x512 .f32) (main_arg5 : FVec F S4x512x512 .f32) (main_arg6 : FVec F S4x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_v13 main_v16
-- ==== Kernel.lean ====
abbrev S32768x512 : Shape := ⟨2, ![32768, 512]⟩
abbrev S4x512x512 : Shape := ⟨3, ![4, 512, 512]⟩
abbrev S4x512 : Shape := ⟨2, ![4, 512]⟩
abbrev S2048x512 : Shape := ⟨2, ![2048, 512]⟩
abbrev S512x2048 : Shape := ⟨2, ![512, 2048]⟩
abbrev S1x2048 : Shape := ⟨2, ![1, 2048]⟩
abbrev S1024x512 : Shape := ⟨2, ![1024, 512]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S2048x512, .f32⟩
  | .hbm, ⟨8, _⟩ => ⟨S512x2048, .f32⟩
  | .hbm, ⟨9, _⟩ => ⟨S512x2048, .bf16⟩
  | .hbm, ⟨10, _⟩ => ⟨S2048x512, .f32⟩
  | .hbm, ⟨11, _⟩ => ⟨S512x2048, .f32⟩
  | .hbm, ⟨12, _⟩ => ⟨S512x2048, .bf16⟩
  | .hbm, ⟨13, _⟩ => ⟨S4x512, .f32⟩
  | .hbm, ⟨14, _⟩ => ⟨S1x2048, .f32⟩
  | .hbm, ⟨15, _⟩ => ⟨S32768x512, .f32⟩
  | .hbm, ⟨16, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v6 : BitVec 32 := Scalar.addi c0_i32 c2_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  v7
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  let v8 : BitVec 32 := v7
  let v9 : Index := Scalar.indexCast v8
  let c0_6 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x512x512_S2048x512 : S4x512x512.ShapeCasts S2048x512
  transposes_S2048x512_S512x2048_1_0 : S2048x512.Transposes [1, 0] S512x2048
  bitsLt_bf16_f32 : FTy.bits .bf16 < FTy.bits .f32
  shapeCasts_S4x512_S1x2048 : S4x512.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S512x512 : 0 < S512x512.numel
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S32768x512.size a
  hwx0_7 : ∀ i : grid0.Coords, EltTy.bits .f32 = 32 ∨ (Rect.block (s := S32768x512) S1024x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x512x512 : Shape := ⟨3, ![4, 512, 512]⟩
abbrev S4x512 : Shape := ⟨2, ![4, 512]⟩
abbrev S32768x4x512 : Shape := ⟨3, ![32768, 4, 512]⟩
abbrev S1x4x512 : Shape := ⟨3, ![1, 4, 512]⟩
abbrev S32768x1x512 : Shape := ⟨3, ![32768, 1, 512]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S32768x4x512, .f32⟩
  | .hbm, ⟨8, _⟩ => ⟨S1x4x512, .f32⟩
  | .hbm, ⟨9, _⟩ => ⟨S32768x4x512, .f32⟩
  | .hbm, ⟨10, _⟩ => ⟨S32768x4x512, .f32⟩
  | .hbm, ⟨11, _⟩ => ⟨S32768x4x512, .f32⟩
  | .hbm, ⟨12, _⟩ => ⟨S32768x4x512, .f32⟩
  | .hbm, ⟨13, _⟩ => ⟨S1x4x512, .f32⟩
  | .hbm, ⟨14, _⟩ => ⟨S32768x4x512, .f32⟩
  | .hbm, ⟨15, _⟩ => ⟨S32768x4x512, .f32⟩
  | .hbm, ⟨16, _⟩ => ⟨S32768x1x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S32768x1x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x1x512, .f32⟩
  | .hbm, ⟨37, _⟩ => ⟨S32768x512, .f32⟩
  | .hbm, ⟨38, _⟩ => ⟨S32768x512, .f32⟩
  | .hbm, ⟨39, _⟩ => ⟨S32768x1x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x512_S1x4x512_1_2 : S4x512.BroadcastsInDim S1x4x512 (![1, 2] : Fin 2 → Fin S1x4x512.rank)
  bcast_S1x4x512_S32768x4x512_0_1_2 : S1x4x512.BroadcastsInDim S32768x4x512 (![0, 1, 2] : Fin 3 → Fin S32768x4x512.rank)
  slices_S32768x4x512_S32768x1x512_0_0_0 : S32768x4x512.Slices ![0, 0, 0] S32768x1x512
  shapeCasts_S32768x1x512_S32768x512 : S32768x1x512.ShapeCasts S32768x512
  bcast_S_S32768x512 : S_.BroadcastsInDim S32768x512 (![] : Fin 0 → Fin S32768x512.rank)
  slices_S32768x4x512_S32768x1x512_0_1_0 : S32768x4x512.Slices ![0, 1, 0] S32768x1x512
  slices_S32768x4x512_S32768x1x512_0_2_0 : S32768x4x512.Slices ![0, 2, 0] S32768x1x512
  slices_S32768x4x512_S32768x1x512_0_3_0 : S32768x4x512.Slices ![0, 3, 0] S32768x1x512
  dot_S32768x512_S4x512x512_S32768x4x512_1_2_0_01_n_n_wf : DotDims.WF S32768x512 S4x512x512 S32768x4x512 [1] [2] [0] [0, 1] [] []

variable [Facts₀]

def dot_S32768x512_S4x512x512_S32768x4x512_1_2_0_01_n_n : DotDims S32768x512 S4x512x512 S32768x4x512 where
  lhsContracting := [1]
  rhsContracting := [2]
  lhsNonContracting := [0]
  rhsNonContracting := [0, 1]
  lhsBatch := []
  rhsBatch := []
  wf := dot_S32768x512_S4x512x512_S32768x4x512_1_2_0_01_n_n_wf

class Facts : Prop extends Facts₀ where

variable [Facts]
-- ==== Proof.Regroup.lean ====
/-
  Sums on the extended reals may be regrouped freely: addition there is commutative and associative
  (an infinity absorbs, and `⊥` wins over `⊤`, whatever the order), so no finiteness is needed.
-/
import Mathlib.Data.EReal.Basic

namespace Cert.Regroup

/-- Two products and two biases: the pre-activation summed as `(a + b) + (p + q)` is the one summed as
    `((a + p) + b) + q`. -/
theorem add_pairs (a b p q : EReal) : (a + b) + (p + q) = ((a + p) + b) + q := by
  rw [add_add_add_comm a b p q, add_assoc (a + p) b q, add_comm b q, ← add_assoc (a + p) q b,
    add_assoc (a + p) q b, add_comm q b, ← add_assoc (a + p) b q]

end Cert.Regroup
-- ==== Proof.Cell.lean ====
/-
  The LSTM cell as one function of the seven argument arrays, element by element, on the extended reals.

  For batch row `b`, gate `g` (input, forget, cell, output: 0..3) and hidden unit `u` the gate's pre-activation is
      s b g u = ((Σ_k x[b,k]·Wi[g,u,k] + bi[g,u]) + Σ_k h0[b,k]·Wh[g,u,k]) + bh[g,u],
  the new cell state is  c1[b,u] = σ(s b 1 u)·c0[b,u] + σ(s b 0 u)·tanh(s b 2 u),
  and the new hidden state  h1[b,u] = σ(s b 3 u)·tanh(c1[b,u]),
  where σ is the logistic function `1 / (1 + e^(-t))` with its limits at the infinities (`0` at `⊥`, `1` at `⊤`).
  No input is assumed finite: every operation here is total on the extended reals.
-/
import Idealize.ShloMosaic.PureOps.Ideal
import Idealize.ShloMosaic.Lib.ValueIdx
import proofs.«136543_j43688407335067_2_alg».proof.Proof.Regroup

noncomputable section

open scoped BigOperators

namespace Cert.Lstm

open Idealize.ShloMosaic Idealize.ShloMosaic.ValueIdx

/-- A batch of rows: 32768 rows of 512 features. -/
abbrev Rows : Shape := ⟨2, ![32768, 512]⟩
/-- The four gates' weight matrices, `[gate, hidden unit, feature]`. -/
abbrev Weights : Shape := ⟨3, ![4, 512, 512]⟩
/-- The four gates' biases, `[gate, hidden unit]`. -/
abbrev Biases : Shape := ⟨2, ![4, 512]⟩

/-- Column `512·g + u` of a `[·, 2048]` slab holding the four gates side by side: unit `u` of gate `g`. -/
def col (g : Fin 4) (u : Fin 512) : Fin 2048 := ⟨512 * g.val + u.val, by have := g.isLt; have := u.isLt; omega⟩

/-- The float word `0x3F800000` is the number one. -/
theorem ofBits_one : Ideal.ofBits .f32 0x3F800000#32 = 1 := by
  simp [Ideal.ofBits, Ideal.ieee, -EReal.coe_mul]; norm_num

/-- The logistic function spelled out with the host's operations — one over one plus the exponential of the negated
    argument, the two ones written as float words — is the logistic function: the spelling is its definition. -/
theorem logistic_spelled (t : EReal) :
    Ideal.div (Ideal.ofBits .f32 0x3F800000#32) (Ideal.ofBits .f32 0x3F800000#32 + Ideal.exp (-t)) = Ideal.logistic t := by
  rw [ofBits_one]; rfl

section
variable (x h0 c0 : Rows.Idx → EReal) (Wi : Weights.Idx → EReal) (bi : Biases.Idx → EReal)
  (Wh : Weights.Idx → EReal) (bh : Biases.Idx → EReal)

/-- The pre-activation of gate `g` at hidden unit `u` for batch row `b`: the input's and the hidden state's
    products with the gate's weight rows, and the two biases, summed in the order the plain formula writes them. -/
def pre (b : Fin 32768) (g : Fin 4) (u : Fin 512) : EReal :=
  (((∑ k : Fin 512, x (ix2 b k) * Wi (ix3 g u k)) + bi (ix2 g u))
    + ∑ k : Fin 512, h0 (ix2 b k) * Wh (ix3 g u k)) + bh (ix2 g u)

/-- The new cell state: forget gate times the old state, plus input gate times the candidate. -/
def cellC (b : Fin 32768) (u : Fin 512) : EReal :=
  Ideal.logistic (pre x h0 Wi bi Wh bh b 1 u) * c0 (ix2 b u)
    + Ideal.logistic (pre x h0 Wi bi Wh bh b 0 u) * Ideal.tanh (pre x h0 Wi bi Wh bh b 2 u)

/-- The new hidden state: output gate times the squashed new cell state. -/
def cellH (b : Fin 32768) (u : Fin 512) : EReal :=
  Ideal.logistic (pre x h0 Wi bi Wh bh b 3 u) * Ideal.tanh (cellC x h0 c0 Wi bi Wh bh b u)

end

/-! ## One batch row against the two weight slabs

The kernel holds each weight tensor as a `[feature, 4·512]` slab, the four gates side by side, and the two biases already
added as one row. For one batch row — its input features `xr`, its hidden features `hr`, its old cell state `cv` at the
unit — the slab column `512·g + u` gives gate `g`'s pre-activation at unit `u`, summed as (products) + (biases). -/

/-- A weight slab, `[feature, 4·512]`. -/
abbrev Slab : Shape := ⟨2, ![512, 2048]⟩
/-- The summed bias row, `[1, 4·512]`. -/
abbrev BiasRow : Shape := ⟨2, ![1, 2048]⟩

section
variable (w3 w4 : Slab.Idx → EReal) (bb : BiasRow.Idx → EReal) (xr hr : Fin 512 → EReal) (cv : EReal)

/-- Column `q` of the row's summed pre-activations: the two products first, then the bias row's entry. -/
def rowSlab (q : Fin 2048) : EReal :=
  ((∑ k : Fin 512, xr k * w3 (ix2 k q)) + ∑ k : Fin 512, hr k * w4 (ix2 k q)) + bb (ix2 (0 : Fin 1) q)

/-- The row's new cell state at unit `u`. -/
def rowC (u : Fin 512) : EReal :=
  Ideal.logistic (rowSlab w3 w4 bb xr hr (col 1 u)) * cv
    + Ideal.logistic (rowSlab w3 w4 bb xr hr (col 0 u)) * Ideal.tanh (rowSlab w3 w4 bb xr hr (col 2 u))

/-- The row's new hidden state at unit `u`. -/
def rowH (u : Fin 512) : EReal :=
  Ideal.logistic (rowSlab w3 w4 bb xr hr (col 3 u)) * Ideal.tanh (rowC w3 w4 bb xr hr cv u)

end

section
variable (x h0 c0 : Rows.Idx → EReal) (Wi : Weights.Idx → EReal) (bi : Biases.Idx → EReal)
  (Wh : Weights.Idx → EReal) (bh : Biases.Idx → EReal)
  (w3 w4 : Slab.Idx → EReal) (bb : BiasRow.Idx → EReal) (xr hr : Fin 512 → EReal) (cv : EReal) (b : Fin 32768)
  (hx : ∀ k : Fin 512, xr k = x (ix2 b k)) (hh : ∀ k : Fin 512, hr k = h0 (ix2 b k))
  (h3 : ∀ (k : Fin 512) (g : Fin 4) (u : Fin 512), w3 (ix2 k (col g u)) = Wi (ix3 g u k))
  (h4 : ∀ (k : Fin 512) (g : Fin 4) (u : Fin 512), w4 (ix2 k (col g u)) = Wh (ix3 g u k))
  (hb : ∀ (g : Fin 4) (u : Fin 512), bb (ix2 (0 : Fin 1) (col g u)) = bi (ix2 g u) + bh (ix2 g u))

include hx hh h3 h4 hb in
/-- When the slabs are the weight tensors re-laid, the bias row the two biases added, and the row's features those of
    batch row `b`, the slab's column for gate `g`, unit `u` is the cell's pre-activation: the same four terms, added in
    another order, which on the extended reals makes no difference. -/
theorem rowSlab_eq_pre (g : Fin 4) (u : Fin 512) :
    rowSlab w3 w4 bb xr hr (col g u) = pre x h0 Wi bi Wh bh b g u := by
  have e1 : (∑ k : Fin 512, xr k * w3 (ix2 k (col g u))) = ∑ k : Fin 512, x (ix2 b k) * Wi (ix3 g u k) :=
    Finset.sum_congr rfl fun k _ => by rw [hx k, h3 k g u]
  have e2 : (∑ k : Fin 512, hr k * w4 (ix2 k (col g u))) = ∑ k : Fin 512, h0 (ix2 b k) * Wh (ix3 g u k) :=
    Finset.sum_congr rfl fun k _ => by rw [hh k, h4 k g u]
  unfold rowSlab pre
  rw [e1, e2, hb g u]
  exact Cert.Regroup.add_pairs _ _ _ _

include hx hh h3 h4 hb in
/-- … so the row's new cell state is the cell's, -/
theorem rowC_eq (u : Fin 512) (hcv : cv = c0 (ix2 b u)) :
    rowC w3 w4 bb xr hr cv u = cellC x h0 c0 Wi bi Wh bh b u := by
  unfold rowC cellC
  rw [rowSlab_eq_pre x h0 Wi bi Wh bh w3 w4 bb xr hr b hx hh h3 h4 hb 1 u,
    rowSlab_eq_pre x h0 Wi bi Wh bh w3 w4 bb xr hr b hx hh h3 h4 hb 0 u,
    rowSlab_eq_pre x h0 Wi bi Wh bh w3 w4 bb xr hr b hx hh h3 h4 hb 2 u, hcv]

include hx hh h3 h4 hb in
/-- … and its new hidden state the cell's. -/
theorem rowH_eq (u : Fin 512) (hcv : cv = c0 (ix2 b u)) :
    rowH w3 w4 bb xr hr cv u = cellH x h0 c0 Wi bi Wh bh b u := by
  unfold rowH cellH
  rw [rowSlab_eq_pre x h0 Wi bi Wh bh w3 w4 bb xr hr b hx hh h3 h4 hb 3 u,
    rowC_eq x h0 c0 Wi bi Wh bh w3 w4 bb xr hr cv b hx hh h3 h4 hb u hcv]

end

end Cert.Lstm

end
-- ==== Proof.RefCell.lean ====
/-
  The plain program computes the LSTM cell: each of its stages, read at one element, is the cell's formula there.
  Its two matrix products are sums over the feature axis; the biases are broadcast along the batch; the four gates are
  the four slices `[:, g, :]` of the pre-activation; the logistic function is written out as one over one plus the
  exponential of the negated argument.
-/
import proofs.«136543_j43688407335067_2_alg».proof.Proof.Gen.ReferenceIdeal.Read
import proofs.«136543_j43688407335067_2_alg».proof.Proof.Cell

noncomputable section

open scoped BigOperators

namespace Cert.ReferenceIdeal.RefCell

open Cert.ReferenceIdeal Cert.ReferenceIdeal.Read Idealize.ShloMosaic Idealize.ShloMosaic.ValueIdx Cert.Lstm

variable (x0 x1 x2 : (⟨S32768x512, .f32⟩ : BufTy).Contents (Elt Ideal)) (x3 : (⟨S4x512x512, .f32⟩ : BufTy).Contents (Elt Ideal))
  (x4 : (⟨S4x512, .f32⟩ : BufTy).Contents (Elt Ideal)) (x5 : (⟨S4x512x512, .f32⟩ : BufTy).Contents (Elt Ideal))
  (x6 : (⟨S4x512, .f32⟩ : BufTy).Contents (Elt Ideal))

/-- The summed pre-activation `[b, g, u]`: the two products over the feature axis and the two biases of gate `g`,
    unit `u`, in the program's order of additions. -/
theorem pre_eq (b : Fin 32768) (g : Fin 4) (u : Fin 512) :
    val_main_v8 (F := Ideal) x0 x1 x3 x4 x5 x6 (ix3 b g u) = pre x0 x1 x3 x4 x5 x6 b g u := by
  have el0 : ∀ k : Fin 512, lidx_main_v0 (ix3 b g u) k = ix2 b k := fun k => funext fun a => match a with
    | ⟨0, _⟩ => rfl | ⟨1, _⟩ => rfl
  have er0 : ∀ k : Fin 512, ridx_main_v0 (ix3 b g u) k = ix3 g u k := fun k => funext fun a => match a with
    | ⟨0, _⟩ => rfl | ⟨1, _⟩ => rfl | ⟨2, _⟩ => rfl
  have el4 : ∀ k : Fin 512, lidx_main_v4 (ix3 b g u) k = ix2 b k := fun k => funext fun a => match a with
    | ⟨0, _⟩ => rfl | ⟨1, _⟩ => rfl
  have er4 : ∀ k : Fin 512, ridx_main_v4 (ix3 b g u) k = ix3 g u k := fun k => funext fun a => match a with
    | ⟨0, _⟩ => rfl | ⟨1, _⟩ => rfl | ⟨2, _⟩ => rfl
  have eb1 : idx_main_v1 (idx_main_v2 (ix3 b g u)) = ix2 g u := funext fun a => match a with
    | ⟨0, _⟩ => rfl | ⟨1, _⟩ => rfl
  have eb6 : idx_main_v6 (idx_main_v7 (ix3 b g u)) = ix2 g u := funext fun a => match a with
    | ⟨0, _⟩ => rfl | ⟨1, _⟩ => rfl
  rw [val_main_v8_apply, val_main_v5_apply, val_main_v3_apply, val_main_v0_apply, val_main_v2_apply, val_main_v1_apply,
    val_main_v4_apply, val_main_v7_apply, val_main_v6_apply, eb1, eb6]
  simp only [el0, er0, el4, er4]
  rfl

/-- Slice `[:, 0, :]` of the pre-activation, reshaped to the batch's shape: the input gate's. -/
theorem gate0_eq (b : Fin 32768) (u : Fin 512) :
    val_main_v10 (F := Ideal) x0 x1 x3 x4 x5 x6 (ix2 b u) = pre x0 x1 x3 x4 x5 x6 b 0 u := by
  have hu := u.isLt
  have e : idx_main_v9 (idx_main_v10 (ix2 b u)) = ix3 b (0 : Fin 4) u := funext fun a => Fin.ext (match a with
    | ⟨0, _⟩ => (show (b.val * 512 + u.val) / 512 = b.val by omega)
    | ⟨1, _⟩ => rfl
    | ⟨2, _⟩ => (show (b.val * 512 + u.val) % 512 = u.val by omega))
  rw [val_main_v10_apply, val_main_v9_apply, e, pre_eq]

/-- Slice `[:, 1, :]`: the forget gate's. -/
theorem gate1_eq (b : Fin 32768) (u : Fin 512) :
    val_main_v18 (F := Ideal) x0 x1 x3 x4 x5 x6 (ix2 b u) = pre x0 x1 x3 x4 x5 x6 b 1 u := by
  have hu := u.isLt
  have e : idx_main_v17 (idx_main_v18 (ix2 b u)) = ix3 b (1 : Fin 4) u := funext fun a => Fin.ext (match a with
    | ⟨0, _⟩ => (show (b.val * 512 + u.val) / 512 = b.val by omega)
    | ⟨1, _⟩ => rfl
    | ⟨2, _⟩ => (show (b.val * 512 + u.val) % 512 = u.val by omega))
  rw [val_main_v18_apply, val_main_v17_apply, e, pre_eq]

/-- Slice `[:, 2, :]`: the candidate's. -/
theorem gate2_eq (b : Fin 32768) (u : Fin 512) :
    val_main_v26 (F := Ideal) x0 x1 x3 x4 x5 x6 (ix2 b u) = pre x0 x1 x3 x4 x5 x6 b 2 u := by
  have hu := u.isLt
  have e : idx_main_v25 (idx_main_v26 (ix2 b u)) = ix3 b (2 : Fin 4) u := funext fun a => Fin.ext (match a with
    | ⟨0, _⟩ => (show (b.val * 512 + u.val) / 512 = b.val by omega)
    | ⟨1, _⟩ => rfl
    | ⟨2, _⟩ => (show (b.val * 512 + u.val) % 512 = u.val by omega))
  rw [val_main_v26_apply, val_main_v25_apply, e, pre_eq]

/-- Slice `[:, 3, :]`: the output gate's. -/
theorem gate3_eq (b : Fin 32768) (u : Fin 512) :
    val_main_v29 (F := Ideal) x0 x1 x3 x4 x5 x6 (ix2 b u) = pre x0 x1 x3 x4 x5 x6 b 3 u := by
  have hu := u.isLt
  have e : idx_main_v28 (idx_main_v29 (ix2 b u)) = ix3 b (3 : Fin 4) u := funext fun a => Fin.ext (match a with
    | ⟨0, _⟩ => (show (b.val * 512 + u.val) / 512 = b.val by omega)
    | ⟨1, _⟩ => rfl
    | ⟨2, _⟩ => (show (b.val * 512 + u.val) % 512 = u.val by omega))
  rw [val_main_v29_apply, val_main_v28_apply, e, pre_eq]

/-- The input gate: the logistic function of its pre-activation, written out. -/
theorem sig0_eq (b : Fin 32768) (u : Fin 512) :
    val_main_v16 (F := Ideal) x0 x1 x3 x4 x5 x6 (ix2 b u) = Ideal.logistic (pre x0 x1 x3 x4 x5 x6 b 0 u) := by
  rw [val_main_v16_apply, val_main_v15_apply, val_main_cst_0_apply, val_main_v14_apply, val_main_v13_apply,
    val_main_cst_apply, val_main_v12_apply, val_main_v11_apply, gate0_eq]
  exact logistic_spelled _

/-- The forget gate. -/
theorem sig1_eq (b : Fin 32768) (u : Fin 512) :
    val_main_v24 (F := Ideal) x0 x1 x3 x4 x5 x6 (ix2 b u) = Ideal.logistic (pre x0 x1 x3 x4 x5 x6 b 1 u) := by
  rw [val_main_v24_apply, val_main_v23_apply, val_main_cst_2_apply, val_main_v22_apply, val_main_v21_apply,
    val_main_cst_1_apply, val_main_v20_apply, val_main_v19_apply, gate1_eq]
  exact logistic_spelled _

/-- The output gate. -/
theorem sig3_eq (b : Fin 32768) (u : Fin 512) :
    val_main_v35 (F := Ideal) x0 x1 x3 x4 x5 x6 (ix2 b u) = Ideal.logistic (pre x0 x1 x3 x4 x5 x6 b 3 u) := by
  rw [val_main_v35_apply, val_main_v34_apply, val_main_cst_4_apply, val_main_v33_apply, val_main_v32_apply,
    val_main_cst_3_apply, val_main_v31_apply, val_main_v30_apply, gate3_eq]
  exact logistic_spelled _

/-- The second result, element `[b, u]`: the new cell state. -/
theorem cellC_eq (b : Fin 32768) (u : Fin 512) :
    val_main_v38 (F := Ideal) x0 x1 x2 x3 x4 x5 x6 (ix2 b u) = cellC x0 x1 x2 x3 x4 x5 x6 b u := by
  rw [val_main_v38_apply, val_main_v36_apply, val_main_v37_apply, val_main_v27_apply, sig1_eq, sig0_eq, gate2_eq]
  rfl

/-- The first result, element `[b, u]`: the new hidden state. -/
theorem cellH_eq (b : Fin 32768) (u : Fin 512) :
    val_main_v40 (F := Ideal) x0 x1 x2 x3 x4 x5 x6 (ix2 b u) = cellH x0 x1 x2 x3 x4 x5 x6 b u := by
  rw [val_main_v40_apply, val_main_v39_apply, sig3_eq, cellC_eq]
  rfl

end Cert.ReferenceIdeal.RefCell

end
-- ==== Proof.KerCell.lean ====
/-
  What one trip of the kernel's loop computes for a chunk of 512 batch rows, read at one element.

  The chunk's rows of the input and of the hidden state are multiplied with the two [512, 2048] weight slabs (their
  bf16 rounding is the identity on the extended reals) into zero accumulators; the two products and the one bias row
  are added; column `512·g + u` of the sum is gate `g`'s pre-activation at unit `u`. The new cell state and the new
  hidden state are then the cell's formulas over those four columns.
-/
import proofs.«136543_j43688407335067_2_alg».proof.Proof.Gen.KernelIdeal.Skeleton
import proofs.«136543_j43688407335067_2_alg».proof.Proof.Cell
import Idealize.ShloMosaic.Lib.ValueIdx
import Idealize.ShloMosaic.Lib.Pipeline.Value
import Idealize.ShloMosaic.PureOps.Ideal.Laws

noncomputable section

open scoped BigOperators

namespace Cert.KernelIdeal.KerCell

open Cert.KernelIdeal Cert.KernelIdeal.Gen Idealize.ShloMosaic Idealize.ShloMosaic.ValueIdx
open Cert.Lstm (col rowSlab rowC rowH)

/-- The dimension numbers of both products: rows times a slab, contracting the feature axis. -/
abbrev D : DotDims S512x512 S512x2048 S512x2048 := dot_S512x512_S512x2048_S512x2048_1_0_0_1_n_n

/-- The operand indices of the product at output index `i` and contraction index `p`, coordinate by coordinate: the
    left operand's are `(i 0, p)`, the right operand's `(p, i 1)`. -/
theorem lhs_coord0 (i : S512x2048.Idx) (p : D.contr.Idx) : (D.lhsIdx i p 0).val = (i 0).val := by
  unfold DotDims.lhsIdx
  rw [dif_neg (show ¬(0 : Fin S512x512.rank) ∈ D.lhsBatch by decide), dif_pos (show (0 : Fin S512x512.rank) ∈ D.lhsNonContracting by decide)]
  rfl
theorem lhs_coord1 (i : S512x2048.Idx) (p : D.contr.Idx) : (D.lhsIdx i p 1).val = (p ⟨0, by decide⟩).val :=
  D.lhsIdx_val_of_single rfl i p
theorem rhs_coord0 (i : S512x2048.Idx) (p : D.contr.Idx) : (D.rhsIdx i p 0).val = (p ⟨0, by decide⟩).val :=
  D.rhsIdx_val_of_single rfl i p
theorem rhs_coord1 (i : S512x2048.Idx) (p : D.contr.Idx) : (D.rhsIdx i p 1).val = (i 1).val := by
  unfold DotDims.rhsIdx
  rw [dif_neg (show ¬(1 : Fin S512x2048.rank) ∈ D.rhsBatch by decide), dif_pos (show (1 : Fin S512x2048.rank) ∈ D.rhsNonContracting by decide)]
  rfl

/-- A chunk of rows times a slab into the zero accumulator: entry `[r, q]` is the sum over the feature axis of row
    `r` of the chunk against column `q` of the slab. -/
theorem matmul_at (lhs : FVec Ideal S512x512 .bf16) (rhs : FVec Ideal S512x2048 .bf16) (r : Fin 512) (q : Fin 2048) :
    matmul D none lhs rhs (constant (F := Ideal) S512x2048 .f32 0x00000000#32) (ix2 r q)
      = ∑ k : Fin 512, lhs (ix2 r k) * rhs (ix2 k q) := by
  refine (Ideal.matmul_constant_zero_apply D none lhs rhs (ix2 r q)).trans ?_
  rw [← Equiv.sum_comp (contrEquiv1 D 512 rfl rfl).symm]
  refine Finset.sum_congr rfl fun k _ => ?_
  have hk := contrEquiv1_symm_val D 512 rfl rfl k
  have el : D.lhsIdx (ix2 r q) ((contrEquiv1 D 512 rfl rfl).symm k) = ix2 r k := funext fun a => Fin.ext (by
    match a with
    | ⟨0, _⟩ => exact lhs_coord0 _ _
    | ⟨1, _⟩ => exact (lhs_coord1 _ _).trans hk)
  have er : D.rhsIdx (ix2 r q) ((contrEquiv1 D 512 rfl rfl).symm k) = ix2 k q := funext fun a => Fin.ext (by
    match a with
    | ⟨0, _⟩ => exact (rhs_coord0 _ _).trans hk
    | ⟨1, _⟩ => exact rhs_coord1 _ _)
  rw [el, er]

/-- The one bias row repeated down the chunk: entry `[r, q]` is the row's entry `q`. -/
theorem bias_at (bb : FVec Ideal S1x2048 .f32) (r : Fin 512) (q : Fin 2048) :
    broadcastTo S512x2048 bb broadcasts_S1x2048_S512x2048 (ix2 r q) = bb (ix2 (0 : Fin 1) q) :=
  broadcastTo_apply bb broadcasts_S1x2048_S512x2048 (ix2 r q) (ix2 (0 : Fin 1) q) (fun a => match a with
    | ⟨0, _⟩ => by show 0 = if (1 : Nat) = 1 then 0 else _; rw [if_pos rfl]
    | ⟨1, _⟩ => by show q.val = if (2048 : Nat) = 1 then 0 else q.val; rw [if_neg (by decide)])

section
variable (w3 w4 : FVec Ideal S512x2048 .bf16) (bb : FVec Ideal S1x2048 .f32) (a b cc : FVec Ideal S512x512 .f32)

/-- The first payload at `[r, q]`: column `q` of the summed pre-activations of the chunk's row `r`. -/
theorem pay1_at (r : Fin 512) (q : Fin 2048) :
    k0_pay1 (F := Ideal) w3 w4 bb a b (ix2 r q)
      = rowSlab w3 w4 bb (fun k => a (ix2 r k)) (fun k => b (ix2 r k)) q := by
  unfold k0_pay1
  rw [addf_apply, addf_apply, shapeCast_self, shapeCast_self, shapeCast_self, matmul_at, matmul_at, bias_at]
  rfl

/-- The four gates' slices of the sum: the slice at column offset `512·g`, read at `[r, u]`. -/
theorem slice0_at (v : FVec Ideal S512x2048 .f32) (r : Fin 512) (u : Fin 512) :
    extractStridedSlice S512x512 ![0, 0] v slices_S512x2048_o0_0_S512x512 (ix2 r u) = v (ix2 r (col 0 u)) :=
  extractStridedSlice_apply ![0, 0] v slices_S512x2048_o0_0_S512x512 (ix2 r u) (ix2 r (col 0 u)) (fun a => match a with
    | ⟨0, _⟩ => by show r.val = 0 + r.val; omega
    | ⟨1, _⟩ => by show 512 * 0 + u.val = 0 + u.val; omega)
theorem slice1_at (v : FVec Ideal S512x2048 .f32) (r : Fin 512) (u : Fin 512) :
    extractStridedSlice S512x512 ![0, 512] v slices_S512x2048_o0_512_S512x512 (ix2 r u) = v (ix2 r (col 1 u)) :=
  extractStridedSlice_apply ![0, 512] v slices_S512x2048_o0_512_S512x512 (ix2 r u) (ix2 r (col 1 u)) (fun a => match a with
    | ⟨0, _⟩ => by show r.val = 0 + r.val; omega
    | ⟨1, _⟩ => by show 512 * 1 + u.val = 512 + u.val; omega)
theorem slice2_at (v : FVec Ideal S512x2048 .f32) (r : Fin 512) (u : Fin 512) :
    extractStridedSlice S512x512 ![0, 1024] v slices_S512x2048_o0_1024_S512x512 (ix2 r u) = v (ix2 r (col 2 u)) :=
  extractStridedSlice_apply ![0, 1024] v slices_S512x2048_o0_1024_S512x512 (ix2 r u) (ix2 r (col 2 u)) (fun a => match a with
    | ⟨0, _⟩ => by show r.val = 0 + r.val; omega
    | ⟨1, _⟩ => by show 512 * 2 + u.val = 1024 + u.val; omega)
theorem slice3_at (v : FVec Ideal S512x2048 .f32) (r : Fin 512) (u : Fin 512) :
    extractStridedSlice S512x512 ![0, 1536] v slices_S512x2048_o0_1536_S512x512 (ix2 r u) = v (ix2 r (col 3 u)) :=
  extractStridedSlice_apply ![0, 1536] v slices_S512x2048_o0_1536_S512x512 (ix2 r u) (ix2 r (col 3 u)) (fun a => match a with
    | ⟨0, _⟩ => by show r.val = 0 + r.val; omega
    | ⟨1, _⟩ => by show 512 * 3 + u.val = 1536 + u.val; omega)

/-- The second payload (what the trip stores into the cell-state block) at `[r, u]`: the new cell state of the
    chunk's row `r`. -/
theorem pay2_at (r : Fin 512) (u : Fin 512) :
    k0_pay2 (F := Ideal) w3 w4 bb a b cc (ix2 r u)
      = rowC w3 w4 bb (fun k => a (ix2 r k)) (fun k => b (ix2 r k)) (cc (ix2 r u)) u := by
  unfold k0_pay2
  show Ideal.logistic (extractStridedSlice S512x512 ![0, 512] (k0_pay1 (F := Ideal) w3 w4 bb a b) slices_S512x2048_o0_512_S512x512 (ix2 r u)) * cc (ix2 r u)
      + Ideal.logistic (extractStridedSlice S512x512 ![0, 0] (k0_pay1 (F := Ideal) w3 w4 bb a b) slices_S512x2048_o0_0_S512x512 (ix2 r u))
        * Ideal.tanh (extractStridedSlice S512x512 ![0, 1024] (k0_pay1 (F := Ideal) w3 w4 bb a b) slices_S512x2048_o0_1024_S512x512 (ix2 r u)) = _
  rw [slice1_at, slice0_at, slice2_at, pay1_at, pay1_at, pay1_at]
  rfl

/-- The third payload (what the trip stores into the hidden-state block) at `[r, u]`: the new hidden state of the
    chunk's row `r`. -/
theorem pay3_at (r : Fin 512) (u : Fin 512) :
    k0_pay3 (F := Ideal) w3 w4 bb a b cc (ix2 r u)
      = rowH w3 w4 bb (fun k => a (ix2 r k)) (fun k => b (ix2 r k)) (cc (ix2 r u)) u := by
  unfold k0_pay3
  show Ideal.logistic (extractStridedSlice S512x512 ![0, 1536] (k0_pay1 (F := Ideal) w3 w4 bb a b) slices_S512x2048_o0_1536_S512x512 (ix2 r u))
      * Ideal.tanh (k0_pay2 (F := Ideal) w3 w4 bb a b cc (ix2 r u)) = _
  rw [slice3_at, pay1_at, pay2_at]
  rfl

end

end Cert.KernelIdeal.KerCell

end
-- ==== Proof.Pieces.lean ====
/-
  What the kernel body leaves in its two output blocks, read back as functions of the block index.

  The body walks a 1024-row block in two trips of 512 rows. Trip `k` loads rows `512·k … 512·k + 511` of the three
  row-blocks, computes the new hidden and cell states of those rows from them and from the two weight slabs and the bias
  row, and stores each through the same rows of its output block: one piece per trip and output. The pieces of all trips
  tile the block, so if every piece is the restriction of ONE function of the block index, the block ends holding that
  function.
-/
import proofs.«136543_j43688407335067_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The 512 rows of a 1024-row block that trip `k` reads and writes. -/
abbrev half (k : Fin k0_t1_loop.trips) : Rect S1024x512 :=
  Rect.unit (s := S1024x512) (k0_off1 k) S512x512.size (k0_off1_inb k)

theorem zero_offsets : (![0, 0] : Fin 2 → Nat) = fun _ => 0 := funext fun a => by fin_cases a <;> rfl

section Trip
variable (𝒱 : Variants) (c : Dev nD) (bd : Option 𝒱.V) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (v0 : Vec F S512x2048 .bf16) (v2 : Vec F S512x2048 .bf16) (v4 : Vec F S1x2048 .f32) (X_arg1 : BufTy.Contents (Elt F) arg1.view.ty) (X_arg2 : BufTy.Contents (Elt F) arg2.view.ty) (X_arg3 : BufTy.Contents (Elt F) arg3.view.ty)

/-- ONE trip's pieces: into the hidden-state block the third payload, into the cell-state block the second, each of
    the trip's rows of the three row-blocks and stored through those rows. -/
theorem trip_pieces (k : Fin k0_t1_loop.trips) :
    tripL_k0_t1 (F := F) 𝒱 c bd i arg1 harg1 arg2 harg2 arg3 harg3 arg4 harg4 arg5 harg5 arg6 harg6 arg7 harg7 arg8 harg8 v0 v2 v4 X_arg1 X_arg2 X_arg3 k
      = ([⟨half k, k0_pay3 v0 v2 v4 (View.readAt (Elt F) arg1.view (half k).toLoadRect X_arg1) (View.readAt (Elt F) arg2.view (half k).toLoadRect X_arg2) (View.readAt (Elt F) arg3.view (half k).toLoadRect X_arg3)⟩],
         [⟨half k, k0_pay2 v0 v2 v4 (View.readAt (Elt F) arg1.view (half k).toLoadRect X_arg1) (View.readAt (Elt F) arg2.view (half k).toLoadRect X_arg2) (View.readAt (Elt F) arg3.view (half k).toLoadRect X_arg3)⟩]) := by
  unfold tripL_k0_t1 trip_k0_t1
  rfl

/-- Every piece accumulated before trip `n`, in either block, is some trip's piece. -/
theorem mem_before (n : ℕ) :
    (∀ p ∈ (pb_k0_t1 (F := F) 𝒱 c bd i arg1 harg1 arg2 harg2 arg3 harg3 arg4 harg4 arg5 harg5 arg6 harg6 arg7 harg7 arg8 harg8 v0 v2 v4 X_arg1 X_arg2 X_arg3 n).1, ∃ k : Fin k0_t1_loop.trips, p ∈ (tripL_k0_t1 (F := F) 𝒱 c bd i arg1 harg1 arg2 harg2 arg3 harg3 arg4 harg4 arg5 harg5 arg6 harg6 arg7 harg7 arg8 harg8 v0 v2 v4 X_arg1 X_arg2 X_arg3 k).1)
    ∧ (∀ p ∈ (pb_k0_t1 (F := F) 𝒱 c bd i arg1 harg1 arg2 harg2 arg3 harg3 arg4 harg4 arg5 harg5 arg6 harg6 arg7 harg7 arg8 harg8 v0 v2 v4 X_arg1 X_arg2 X_arg3 n).2, ∃ k : Fin k0_t1_loop.trips, p ∈ (tripL_k0_t1 (F := F) 𝒱 c bd i arg1 harg1 arg2 harg2 arg3 harg3 arg4 harg4 arg5 harg5 arg6 harg6 arg7 harg7 arg8 harg8 v0 v2 v4 X_arg1 X_arg2 X_arg3 k).2) := by
  induction n with
  | zero => exact ⟨fun p hp => absurd hp List.not_mem_nil, fun p hp => absurd hp List.not_mem_nil⟩
  | succ n ih =>
    rw [pb_k0_t1.eq_2]
    unfold pb_k0_t1Step
    by_cases h : n < k0_t1_loop.trips
    · rw [dif_pos h]
      refine ⟨fun p hp => ?_, fun p hp => ?_⟩
      · rcases List.mem_append.mp hp with hp | hp
        · exact ⟨⟨n, h⟩, hp⟩
        · exact ih.1 p hp
      · rcases List.mem_append.mp hp with hp | hp
        · exact ⟨⟨n, h⟩, hp⟩
        · exact ih.2 p hp
    · rw [dif_neg h]; exact ih

end Trip

section Block
variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (x0 : Vec F S1024x512 .f32) (x1 : Vec F S1024x512 .f32) (x2 : Vec F S1024x512 .f32) (x3 : Vec F S512x2048 .bf16) (x4 : Vec F S512x2048 .bf16) (x5 : Vec F S1x2048 .f32)

/-- The body's run leaves, in the two blocks, the pieces accumulated over all trips, the three row-blocks read as the
    body found them and the slabs and the bias row as loaded before the loop. -/
theorem run_pieces :
    ((kernelRun0_A c i arg1 harg1 arg2 harg2 arg3 harg3 arg4 harg4 arg5 harg5 arg6 harg6 arg7 harg7 arg8 harg8 x0 x1 x2 x3 x4 x5).1, (kernelRun0_A c i arg1 harg1 arg2 harg2 arg3 harg3 arg4 harg4 arg5 harg5 arg6 harg6 arg7 harg7 arg8 harg8 x0 x1 x2 x3 x4 x5).2.1)
      = pb_k0_t1 (F := F) Variants.none c none i arg1 harg1 arg2 harg2 arg3 harg3 arg4 harg4 arg5 harg5 arg6 harg6 arg7 harg7 arg8 harg8
          (View.readAt (Elt F) arg4.view (Rect.unit (s := S512x2048) ![0, 0] S512x2048.size inb_S512x2048_S512x2048_0_0).toLoadRect (harg4.unread x3))
          (View.readAt (Elt F) arg5.view (Rect.unit (s := S512x2048) ![0, 0] S512x2048.size inb_S512x2048_S512x2048_0_0).toLoadRect (harg5.unread x4))
          (View.readAt (Elt F) arg6.view (Rect.unit (s := S1x2048) ![0, 0] S1x2048.size inb_S1x2048_S1x2048_0_0).toLoadRect (harg6.unread x5))
          (harg1.unread x0) (harg2.unread x1) (harg3.unread x2) k0_t1_loop.trips := by
  unfold kernelRun0_A
  rfl

/-- THE HIDDEN-STATE BLOCK after the body: any function `G` of the block index that every trip's third payload
    restricts — trip `k`'s payload at its own index `x` is `G` at the block index under `x` — is what the block holds. -/
theorem out6_eq_of (G : S1024x512.Idx → Elt F .f32)
    (hG : ∀ (k : Fin k0_t1_loop.trips) (x : (half k).shape.Idx),
      k0_pay3 x3 x4 x5 (View.ld x0 (half k)) (View.ld x1 (half k)) (View.ld x2 (half k)) x = G ((half k).emb x)) :
    out0_A_6 c i arg1 harg1 arg2 harg2 arg3 harg3 arg4 harg4 arg5 harg5 arg6 harg6 arg7 harg7 arg8 harg8 x0 x1 x2 x3 x4 x5 = G := by
  funext y
  unfold out0_A_6
  refine View.read_writes_apply_of_pieces VO0_6 VO0_6.junk G _ ?_ y (cover0_A_6 c i arg1 harg1 arg2 harg2 arg3 harg3 arg4 harg4 arg5 harg5 arg6 harg6 arg7 harg7 arg8 harg8 x0 x1 x2 x3 x4 x5 y)
  intro p hp x
  have e := congrArg Prod.fst (run_pieces c i arg1 harg1 arg2 harg2 arg3 harg3 arg4 harg4 arg5 harg5 arg6 harg6 arg7 harg7 arg8 harg8 x0 x1 x2 x3 x4 x5)
  dsimp only at e
  rw [e] at hp
  obtain ⟨k, hk⟩ := (mem_before Variants.none c none i arg1 harg1 arg2 harg2 arg3 harg3 arg4 harg4 arg5 harg5 arg6 harg6 arg7 harg7 arg8 harg8 _ _ _ _ _ _ _).1 p hp
  rw [trip_pieces] at hk
  obtain rfl := List.mem_singleton.mp hk
  simp only [View.readAt_eq_ld, harg1.read_unread, harg2.read_unread, harg3.read_unread, harg4.read_unread,
    harg5.read_unread, harg6.read_unread, View.ld_unit_zero (S := S512x2048) zero_offsets,
    View.ld_unit_zero (S := S1x2048) zero_offsets]
  exact hG k x

/-- THE CELL-STATE BLOCK after the body, in the same way from the second payload. -/
theorem out7_eq_of (G : S1024x512.Idx → Elt F .f32)
    (hG : ∀ (k : Fin k0_t1_loop.trips) (x : (half k).shape.Idx),
      k0_pay2 x3 x4 x5 (View.ld x0 (half k)) (View.ld x1 (half k)) (View.ld x2 (half k)) x = G ((half k).emb x)) :
    out0_A_7 c i arg1 harg1 arg2 harg2 arg3 harg3 arg4 harg4 arg5 harg5 arg6 harg6 arg7 harg7 arg8 harg8 x0 x1 x2 x3 x4 x5 = G := by
  funext y
  unfold out0_A_7
  refine View.read_writes_apply_of_pieces VO0_7 VO0_7.junk G _ ?_ y (cover0_A_7 c i arg1 harg1 arg2 harg2 arg3 harg3 arg4 harg4 arg5 harg5 arg6 harg6 arg7 harg7 arg8 harg8 x0 x1 x2 x3 x4 x5 y)
  intro p hp x
  have e := congrArg Prod.snd (run_pieces c i arg1 harg1 arg2 harg2 arg3 harg3 arg4 harg4 arg5 harg5 arg6 harg6 arg7 harg7 arg8 harg8 x0 x1 x2 x3 x4 x5)
  dsimp only at e
  rw [e] at hp
  obtain ⟨k, hk⟩ := (mem_before Variants.none c none i arg1 harg1 arg2 harg2 arg3 harg3 arg4 harg4 arg5 harg5 arg6 harg6 arg7 harg7 arg8 harg8 _ _ _ _ _ _ _).2 p hp
  rw [trip_pieces] at hk
  obtain rfl := List.mem_singleton.mp hk
  simp only [View.readAt_eq_ld, harg1.read_unread, harg2.read_unread, harg3.read_unread, harg4.read_unread,
    harg5.read_unread, harg6.read_unread, View.ld_unit_zero (S := S512x2048) zero_offsets,
    View.ld_unit_zero (S := S1x2048) zero_offsets]
  exact hG k x

end Block

end Cert.KernelIdeal.Pieces

end
-- ==== Proof.HostSide.lean ====
/-
  The three arrays the kernel's resident windows stage, as the host operations before the launch leave them, read at
  one element. Each weight tensor `[gate, unit, feature]` is flattened to `[4·512, feature]` and transposed, so the
  slab's entry `[k, 512·g + u]` is the tensor's `[g, u, k]` (the rounding to bf16 is the identity on the extended reals);
  the two bias matrices are added and flattened to one row whose entry `512·g + u` is the sum of the two biases `[g, u]`.
-/
import proofs.«136543_j43688407335067_2_alg».proof.Proof.Gen.KernelIdeal.Frame.Runs
import proofs.«136543_j43688407335067_2_alg».proof.Proof.Cell
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx Cert.Lstm

variable (m : (ℓ : Loc nD τ sig) → Buf (Elt Ideal) ℓ) (c : Dev nD)

/-- The seven argument arrays on core `c`, as extended-real arrays of their shapes: the input rows, the old hidden and
    cell states, and the input and hidden weights and biases. -/
abbrev argX : FVec Ideal S32768x512 .f32 := m ((c : Thread nD τ).loc main_arg0)
abbrev argH : FVec Ideal S32768x512 .f32 := m ((c : Thread nD τ).loc main_arg1)
abbrev argC : FVec Ideal S32768x512 .f32 := m ((c : Thread nD τ).loc main_arg2)
abbrev argWi : FVec Ideal S4x512x512 .f32 := m ((c : Thread nD τ).loc main_arg3)
abbrev argBi : FVec Ideal S4x512 .f32 := m ((c : Thread nD τ).loc main_arg4)
abbrev argWh : FVec Ideal S4x512x512 .f32 := m ((c : Thread nD τ).loc main_arg5)
abbrev argBh : FVec Ideal S4x512 .f32 := m ((c : Thread nD τ).loc main_arg6)

/-- The input weights' slab as the region finds it: the tensor flattened, transposed and rounded. -/
theorem slabI_eq : (V m c main_v2 : FVec Ideal S512x2048 .bf16)
    = truncf (F := Ideal) .bf16 (transpose S512x2048 [1, 0] (shapeCast S2048x512 (argWi m c) shapeCasts_S4x512x512_S2048x512) transposes_S2048x512_S512x2048_1_0) bitsLt_bf16_f32 := by
  dsimp only [Gen.V, Gen.hostOps0]; after_results; rfl

/-- The hidden weights' slab, in the same way. -/
theorem slabH_eq : (V m c main_v5 : FVec Ideal S512x2048 .bf16)
    = truncf (F := Ideal) .bf16 (transpose S512x2048 [1, 0] (shapeCast S2048x512 (argWh m c) shapeCasts_S4x512x512_S2048x512) transposes_S2048x512_S512x2048_1_0) bitsLt_bf16_f32 := by
  dsimp only [Gen.V, Gen.hostOps0]; after_results; rfl

/-- The bias row: the two bias matrices added, then flattened. -/
theorem biasRow_eq : (V m c main_v7 : FVec Ideal S1x2048 .f32)
    = shapeCast S1x2048 (addf (F := Ideal) (argBi m c) (argBh m c)) shapeCasts_S4x512_S1x2048 := by
  dsimp only [Gen.V, Gen.hostOps0]; after_results; rfl

/-- A flattened, transposed weight tensor at `[k, 512·g + u]` is the tensor at `[g, u, k]`. -/
theorem flatT_at (W : FVec Ideal S4x512x512 .f32) (k : Fin 512) (g : Fin 4) (u : Fin 512) :
    truncf (F := Ideal) .bf16 (transpose S512x2048 [1, 0] (shapeCast S2048x512 W shapeCasts_S4x512x512_S2048x512) transposes_S2048x512_S512x2048_1_0) bitsLt_bf16_f32 (ix2 k (col g u))
      = W (ix3 g u k) := by
  show transpose S512x2048 [1, 0] (shapeCast S2048x512 W shapeCasts_S4x512x512_S2048x512) transposes_S2048x512_S512x2048_1_0 (ix2 k (col g u)) = _
  refine (transpose_apply [1, 0] _ transposes_S2048x512_S512x2048_1_0 (ix2 k (col g u)) (ix2 (col g u) k) (fun b => match b with
    | ⟨0, _⟩ => rfl
    | ⟨1, _⟩ => rfl)).trans ?_
  refine shapeCast_apply W shapeCasts_S4x512x512_S2048x512 (ix2 (col g u) k) (ix3 g u k) ?_
  rw [Shape.rowMajor_val_three, Shape.rowMajor_val_two]
  show (g.val * 512 + u.val) * 512 + k.val = (512 * g.val + u.val) * 512 + k.val
  omega

/-- The input weights' slab at `[k, 512·g + u]` is the input weight `[g, u, k]`. -/
theorem slabI_at (k : Fin 512) (g : Fin 4) (u : Fin 512) :
    (V m c main_v2 : FVec Ideal S512x2048 .bf16) (ix2 k (col g u)) = (argWi m c) (ix3 g u k) := by
  rw [slabI_eq]; exact flatT_at _ k g u

/-- The hidden weights' slab at `[k, 512·g + u]` is the hidden weight `[g, u, k]`. -/
theorem slabH_at (k : Fin 512) (g : Fin 4) (u : Fin 512) :
    (V m c main_v5 : FVec Ideal S512x2048 .bf16) (ix2 k (col g u)) = (argWh m c) (ix3 g u k) := by
  rw [slabH_eq]; exact flatT_at _ k g u

/-- The bias row at `512·g + u` is the sum of the two biases `[g, u]`. -/
theorem biasRow_at (g : Fin 4) (u : Fin 512) :
    (V m c main_v7 : FVec Ideal S1x2048 .f32) (ix2 (0 : Fin 1) (col g u))
      = (argBi m c) (ix2 g u) + (argBh m c) (ix2 g u) := by
  rw [biasRow_eq]
  refine (shapeCast_apply _ shapeCasts_S4x512_S1x2048 (ix2 (0 : Fin 1) (col g u)) (ix2 g u) ?_).trans rfl
  rw [Shape.rowMajor_val_two, Shape.rowMajor_val_two]
  show g.val * 512 + u.val = 0 * 2048 + (512 * g.val + u.val)
  omega

end Cert.KernelIdeal.HostSide

end
-- ==== Proof.Blocks.lean ====
/-
  From blocks to arrays. The grid has 32 points; point `t` stages rows `1024·t … 1024·t + 1023` of the three row
  arrays, the whole of the two weight slabs and of the bias row, and writes back the same rows of the two results.
  Trip `k` of the body works on rows `512·k … 512·k + 511` of the block, so the chunk's row `r` is batch row
  `1024·t + 512·k + r`. Every piece the body stores is therefore the plain program's stage restricted to those rows;
  the 32 blocks tile each result array; so each result array ends holding the plain program's stage.
-/
import proofs.«136543_j43688407335067_2_alg».proof.Proof.Gen.KernelIdeal.Value
import proofs.«136543_j43688407335067_2_alg».proof.Proof.RefCell
import proofs.«136543_j43688407335067_2_alg».proof.Proof.KerCell
import proofs.«136543_j43688407335067_2_alg».proof.Proof.Pieces
import proofs.«136543_j43688407335067_2_alg».proof.Proof.HostSide

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Lstm Cert.KernelIdeal.HostSide Cert.KernelIdeal.Pieces
open Cert.ReferenceIdeal (RefCell.cellH_eq RefCell.cellC_eq)

variable (m : (ℓ : Loc nD τ sig) → Buf (Elt Ideal) ℓ) (ρ : Dev nD → PrngReg)

/-- The plain program's two result stages of core `c`'s argument arrays: the new hidden state and the new cell state. -/
abbrev GH (c : Dev nD) : FVec Ideal S32768x512 .f32 :=
  Cert.ReferenceIdeal.Read.val_main_v40 (F := Ideal) (argX m c) (argH m c) (argC m c) (argWi m c) (argBi m c) (argWh m c) (argBh m c)
abbrev GC (c : Dev nD) : FVec Ideal S32768x512 .f32 :=
  Cert.ReferenceIdeal.Read.val_main_v38 (F := Ideal) (argX m c) (argH m c) (argC m c) (argWi m c) (argBi m c) (argWh m c) (argBh m c)

/-! ## Rows -/

theorem trip_lt (k : Fin k0_t1_loop.trips) : k.val < 2 := Nat.lt_of_lt_of_le k.isLt k0_t1_abs.2.1
theorem point_lt (t : Fin cfg0.N) : t.val < 32 := by
  have h : t.val < grid0.N := t.isLt
  rwa [N_0] at h

/-- Row `p` of point `t`'s block is batch row `1024·t + p`. -/
def brow (t : Fin cfg0.N) (p : Fin 1024) : Fin 32768 :=
  ⟨1024 * t.val + p.val, by have := point_lt t; have := p.isLt; omega⟩
/-- Row `r` of trip `k`'s chunk is row `512·k + r` of the block. -/
def hrow (k : Fin k0_t1_loop.trips) (r : Fin 512) : Fin 1024 :=
  ⟨512 * k.val + r.val, by have := trip_lt k; have := r.isLt; omega⟩

/-- The printed index maps, decided over the 32 points: the row windows' block index is the point, -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- and the resident windows' is always the first block. -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Trip `k`'s rows of a block: the chunk's `[r, q]` is the block's `[512·k + r, q]`. -/
theorem half_idx (k : Fin k0_t1_loop.trips) (r : Fin 512) (q : Fin 512) :
    (half k).idx (ix2 r q) = (ix2 (hrow k r) q : S1024x512.Idx) := by
  have e := k0_off1_eq k
  funext a; apply Fin.ext
  match a with
  | ⟨0, _⟩ => show k0_off1 k 0 + 1 * r.val = 512 * k.val + r.val; rw [e]; show 512 * k.val + 1 * r.val = _; omega
  | ⟨1, _⟩ => show k0_off1 k 1 + 1 * q.val = q.val; rw [e]; show 0 + 1 * q.val = _; omega

/-- Point `t`'s block of the input rows: the block's `[p, q]` is the array's `[1024·t + p, q]`. -/
theorem emb0 (t : Fin cfg0.N) (p : Fin 1024) (q : Fin 512) :
    ((cfg0.win 0).blk t).view.emb (ix2 p q) = (ix2 (brow t p) q : S32768x512.Idx) := by
  have hf := idx_rows t
  funext a; apply Fin.ext
  match a with
  | ⟨0, _⟩ => show win0_0.index t (0 : Fin 2) * 1024 + 1 * p.val = 1024 * t.val + p.val; omega
  | ⟨1, _⟩ => show win0_0.index t (1 : Fin 2) * 512 + 1 * q.val = q.val; omega
/-- The same for the hidden-state rows, -/
theorem emb1 (t : Fin cfg0.N) (p : Fin 1024) (q : Fin 512) :
    ((cfg0.win 1).blk t).view.emb (ix2 p q) = (ix2 (brow t p) q : S32768x512.Idx) := by
  have hf := idx_rows t
  funext a; apply Fin.ext
  match a with
  | ⟨0, _⟩ => show win0_1.index t (0 : Fin 2) * 1024 + 1 * p.val = 1024 * t.val + p.val; omega
  | ⟨1, _⟩ => show win0_1.index t (1 : Fin 2) * 512 + 1 * q.val = q.val; omega
/-- the cell-state rows, -/
theorem emb2 (t : Fin cfg0.N) (p : Fin 1024) (q : Fin 512) :
    ((cfg0.win 2).blk t).view.emb (ix2 p q) = (ix2 (brow t p) q : S32768x512.Idx) := by
  have hf := idx_rows t
  funext a; apply Fin.ext
  match a with
  | ⟨0, _⟩ => show win0_2.index t (0 : Fin 2) * 1024 + 1 * p.val = 1024 * t.val + p.val; omega
  | ⟨1, _⟩ => show win0_2.index t (1 : Fin 2) * 512 + 1 * q.val = q.val; omega
/-- the new hidden state's block -/
theorem emb6 (t : Fin cfg0.N) (p : Fin 1024) (q : Fin 512) :
    ((cfg0.win 6).blk t).view.emb (ix2 p q) = (ix2 (brow t p) q : S32768x512.Idx) := by
  have hf := idx_rows t
  funext a; apply Fin.ext
  match a with
  | ⟨0, _⟩ => show win0_6.index t (0 : Fin 2) * 1024 + 1 * p.val = 1024 * t.val + p.val; omega
  | ⟨1, _⟩ => show win0_6.index t (1 : Fin 2) * 512 + 1 * q.val = q.val; omega
/-- and the new cell state's. -/
theorem emb7 (t : Fin cfg0.N) (p : Fin 1024) (q : Fin 512) :
    ((cfg0.win 7).blk t).view.emb (ix2 p q) = (ix2 (brow t p) q : S32768x512.Idx) := by
  have hf := idx_rows t
  funext a; apply Fin.ext
  match a with
  | ⟨0, _⟩ => show win0_7.index t (0 : Fin 2) * 1024 + 1 * p.val = 1024 * t.val + p.val; omega
  | ⟨1, _⟩ => show win0_7.index t (1 : Fin 2) * 512 + 1 * q.val = q.val; omega

/-! ## What the body's loads read -/

/-- The chunk's input rows are batch rows of the first argument. -/
theorem rowsX_at (c : Dev nD) (t : Fin cfg0.N) (k : Fin k0_t1_loop.trips) (r : Fin 512) (q : Fin 512) :
    View.ld (iblk m c 0 t) (half k) (ix2 r q) = argX m c (ix2 (brow t (hrow k r)) q) := by
  show V m c main_arg0 (((cfg0.win 0).blk t).view.emb ((half k).idx (ix2 r q))) = _
  rw [half_idx, emb0, V_main_arg0]
/-- The chunk's hidden rows are batch rows of the second. -/
theorem rowsH_at (c : Dev nD) (t : Fin cfg0.N) (k : Fin k0_t1_loop.trips) (r : Fin 512) (q : Fin 512) :
    View.ld (iblk m c 1 t) (half k) (ix2 r q) = argH m c (ix2 (brow t (hrow k r)) q) := by
  show V m c main_arg1 (((cfg0.win 1).blk t).view.emb ((half k).idx (ix2 r q))) = _
  rw [half_idx, emb1, V_main_arg1]
/-- The chunk's old cell states are batch rows of the third. -/
theorem rowsC_at (c : Dev nD) (t : Fin cfg0.N) (k : Fin k0_t1_loop.trips) (r : Fin 512) (q : Fin 512) :
    View.ld (iblk m c 2 t) (half k) (ix2 r q) = argC m c (ix2 (brow t (hrow k r)) q) := by
  show V m c main_arg2 (((cfg0.win 2).blk t).view.emb ((half k).idx (ix2 r q))) = _
  rw [half_idx, emb2, V_main_arg2]

/-- The resident slabs are the whole arrays: block `[k, q]` is the array's `[k, q]`. -/
theorem slabI_blk (c : Dev nD) (t : Fin cfg0.N) (k' : Fin 512) (g : Fin 4) (u : Fin 512) :
    iblk m c 3 t (ix2 k' (col g u)) = argWi m c (ix3 g u k') := by
  have hf := idx_resident t
  have e : ((cfg0.win 3).blk t).view.emb (ix2 k' (col g u)) = (ix2 k' (col g u) : S512x2048.Idx) := by
    funext a; apply Fin.ext
    match a with
    | ⟨0, _⟩ => show win0_3.index t (0 : Fin 2) * 512 + 1 * k'.val = k'.val; omega
    | ⟨1, _⟩ => show win0_3.index t (1 : Fin 2) * 2048 + 1 * (col g u).val = (col g u).val; omega
  show V m c main_v2 (((cfg0.win 3).blk t).view.emb (ix2 k' (col g u))) = _
  rw [e]; exact slabI_at m c k' g u
theorem slabH_blk (c : Dev nD) (t : Fin cfg0.N) (k' : Fin 512) (g : Fin 4) (u : Fin 512) :
    iblk m c 4 t (ix2 k' (col g u)) = argWh m c (ix3 g u k') := by
  have hf := idx_resident t
  have e : ((cfg0.win 4).blk t).view.emb (ix2 k' (col g u)) = (ix2 k' (col g u) : S512x2048.Idx) := by
    funext a; apply Fin.ext
    match a with
    | ⟨0, _⟩ => show win0_4.index t (0 : Fin 2) * 512 + 1 * k'.val = k'.val; omega
    | ⟨1, _⟩ => show win0_4.index t (1 : Fin 2) * 2048 + 1 * (col g u).val = (col g u).val; omega
  show V m c main_v5 (((cfg0.win 4).blk t).view.emb (ix2 k' (col g u))) = _
  rw [e]; exact slabH_at m c k' g u
/-- The resident bias row is the whole row. -/
theorem bias_blk (c : Dev nD) (t : Fin cfg0.N) (g : Fin 4) (u : Fin 512) :
    iblk m c 5 t (ix2 (0 : Fin 1) (col g u)) = argBi m c (ix2 g u) + argBh m c (ix2 g u) := by
  have hf := idx_resident t
  have e : ((cfg0.win 5).blk t).view.emb (ix2 (0 : Fin 1) (col g u)) = (ix2 (0 : Fin 1) (col g u) : S1x2048.Idx) := by
    funext a; apply Fin.ext
    match a with
    | ⟨0, _⟩ => show win0_5.index t (0 : Fin 2) * 1 + 1 * 0 = 0; omega
    | ⟨1, _⟩ => show win0_5.index t (1 : Fin 2) * 2048 + 1 * (col g u).val = (col g u).val; omega
  show V m c main_v7 (((cfg0.win 5).blk t).view.emb (ix2 (0 : Fin 1) (col g u))) = _
  rw [e]; exact biasRow_at m c g u

/-! ## What each point writes back -/

/-- THE HIDDEN-STATE BLOCK the body leaves at point `t` is block `t` of the plain program's new hidden state: each trip's piece, at the chunk's `[r, u]`, is the cell's value for batch row `1024·t + 512·k + r`. -/
theorem block6 (c : Dev nD) (t : Fin cfg0.N) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
      = ((cfg0.win 6).blk t).view.read (Elt Ideal) (GH m c) := by
  refine out6_eq_of (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) _ ?_
  intro k x
  obtain ⟨r, u, rfl⟩ : ∃ (r : Fin 512) (u : Fin 512), x = ix2 r u := ⟨x 0, x 1, eq_ix2 x⟩
  refine (KerCell.pay3_at (iblk m c 3 t) (iblk m c 4 t) (iblk m c 5 t) (View.ld (iblk m c 0 t) (half k)) (View.ld (iblk m c 1 t) (half k)) (View.ld (iblk m c 2 t) (half k)) r u).trans ?_
  show _ = GH m c (((cfg0.win 6).blk t).view.emb ((half k).idx (ix2 r u)))
  rw [half_idx, emb6]
  refine Eq.trans ?_ (RefCell.cellH_eq (argX m c) (argH m c) (argC m c) (argWi m c) (argBi m c) (argWh m c) (argBh m c) (brow t (hrow k r)) u).symm
  exact rowH_eq (argX m c) (argH m c) (argC m c) (argWi m c) (argBi m c) (argWh m c) (argBh m c) (iblk m c 3 t) (iblk m c 4 t) (iblk m c 5 t) _ _ _ (brow t (hrow k r))
    (fun k' => rowsX_at m c t k r k') (fun k' => rowsH_at m c t k r k')
    (fun k' g u' => slabI_blk m c t k' g u') (fun k' g u' => slabH_blk m c t k' g u') (fun g u' => bias_blk m c t g u')
    u (rowsC_at m c t k r u)

/-- THE CELL-STATE BLOCK the body leaves at point `t` is block `t` of the plain program's new cell state. -/
theorem block7 (c : Dev nD) (t : Fin cfg0.N) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)
      = ((cfg0.win 7).blk t).view.read (Elt Ideal) (GC m c) := by
  refine out7_eq_of (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) _ ?_
  intro k x
  obtain ⟨r, u, rfl⟩ : ∃ (r : Fin 512) (u : Fin 512), x = ix2 r u := ⟨x 0, x 1, eq_ix2 x⟩
  refine (KerCell.pay2_at (iblk m c 3 t) (iblk m c 4 t) (iblk m c 5 t) (View.ld (iblk m c 0 t) (half k)) (View.ld (iblk m c 1 t) (half k)) (View.ld (iblk m c 2 t) (half k)) r u).trans ?_
  show _ = GC m c (((cfg0.win 7).blk t).view.emb ((half k).idx (ix2 r u)))
  rw [half_idx, emb7]
  refine Eq.trans ?_ (RefCell.cellC_eq (argX m c) (argH m c) (argC m c) (argWi m c) (argBi m c) (argWh m c) (argBh m c) (brow t (hrow k r)) u).symm
  exact rowC_eq (argX m c) (argH m c) (argC m c) (argWi m c) (argBi m c) (argWh m c) (argBh m c) (iblk m c 3 t) (iblk m c 4 t) (iblk m c 5 t) _ _ _ (brow t (hrow k r))
    (fun k' => rowsX_at m c t k r k') (fun k' => rowsH_at m c t k r k')
    (fun k' g u' => slabI_blk m c t k' g u') (fun k' g u' => slabH_blk m c t k' g u') (fun g u' => bias_blk m c t g u')
    u (rowsC_at m c t k r u)

/-- What point `t` writes back to the first result is block `t` of the new hidden state, -/
theorem flushed6_eq (c : Dev nD) (t : Fin cfg0.N) :
    (dats m 0 c).flushed 6 t = ((cfg0.win 6).blk t).view.read (Elt Ideal) (GH m c) := by
  rw [Value.flushed6_A, block6]

/-- and to the second, block `t` of the new cell state. -/
theorem flushed7_eq (c : Dev nD) (t : Fin cfg0.N) :
    (dats m 0 c).flushed 7 t = ((cfg0.win 7).blk t).view.read (Elt Ideal) (GC m c) := by
  rw [Value.flushed7_A, block7]

/-! ## The result arrays after the run -/

/-- An index of the array is in point `t`'s block iff each coordinate is in the block's range on its axis. -/
theorem mem_blk6 (t : Fin cfg0.N) (i : S32768x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v8_0).slice (win0_6.rect t)).set ↔ _
  rw [View.set_slice_whole, Rect.mem_set_unit]
  exact Iff.rfl

/-- Every row of the array lies in the block of the point `row / 1024`. -/
theorem cover6 (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  have hN : (i 0).val / 1024 < cfg0.N := by show (i 0).val / 1024 < grid0.N; rw [N_0]; omega
  refine ⟨⟨(i 0).val / 1024, hN⟩, flush0_6 _, ?_⟩
  have hf := idx_rows ⟨(i 0).val / 1024, hN⟩
  have ht : (⟨(i 0).val / 1024, hN⟩ : Fin cfg0.N).val = (i 0).val / 1024 := rfl
  rw [mem_blk6]
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; omega
  | ⟨1, _⟩ => show win0_6.index ⟨(i 0).val / 1024, hN⟩ (1 : Fin 2) * 512 ≤ (i 1).val ∧ (i 1).val < win0_6.index ⟨(i 0).val / 1024, hN⟩ (1 : Fin 2) * 512 + 512; omega

/-- THE FIRST RESULT after the run is the plain program's new hidden state of the argument arrays. -/
theorem final6 (c : Dev nD) : (dats m 0 c).arrAt 6 cfg0.N = GH m c :=
  (dats m 0 c).arrAt_eq_of_cover 6 (GH m c) (fun t _ => flushed6_eq m c t) cover6

/-- An index of the array is in point `t`'s block iff each coordinate is in the block's range on its axis. -/
theorem mem_blk7 (t : Fin cfg0.N) (i : S32768x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v8_1).slice (win0_7.rect t)).set ↔ _
  rw [View.set_slice_whole, Rect.mem_set_unit]
  exact Iff.rfl

/-- Every row of the array lies in the block of the point `row / 1024`. -/
theorem cover7 (i : S32768x512.Idx) : ∃ t : Fin cfg0.N, (cfg0.win 7).flush t = true ∧ i ∈ ((cfg0.win 7).blk t).view.set := by
  have hi0 : (i 0).val < 32768 := (i 0).isLt
  have hi1 : (i 1).val < 512 := (i 1).isLt
  have hN : (i 0).val / 1024 < cfg0.N := by show (i 0).val / 1024 < grid0.N; rw [N_0]; omega
  refine ⟨⟨(i 0).val / 1024, hN⟩, flush0_7 _, ?_⟩
  have hf := idx_rows ⟨(i 0).val / 1024, hN⟩
  have ht : (⟨(i 0).val / 1024, hN⟩ : Fin cfg0.N).val = (i 0).val / 1024 := rfl
  rw [mem_blk7]
  intro a
  match a with
  | ⟨0, _⟩ => show win0_7.index ⟨(i 0).val / 1024, hN⟩ (0 : Fin 2) * 1024 ≤ (i 0).val ∧ (i 0).val < win0_7.index ⟨(i 0).val / 1024, hN⟩ (0 : Fin 2) * 1024 + 1024; omega
  | ⟨1, _⟩ => show win0_7.index ⟨(i 0).val / 1024, hN⟩ (1 : Fin 2) * 512 ≤ (i 1).val ∧ (i 1).val < win0_7.index ⟨(i 0).val / 1024, hN⟩ (1 : Fin 2) * 512 + 512; omega

/-- THE SECOND RESULT after the run is the plain program's new cell state of the argument arrays. -/
theorem final7 (c : Dev nD) : (dats m 0 c).arrAt 7 cfg0.N = GC m c :=
  (dats m 0 c).arrAt_eq_of_cover 7 (GC m c) (fun t _ => flushed7_eq m c t) cover7

/-- The kernel's run re-posted: each result array at the plain program's stage of the argument arrays, the arguments
    unchanged. -/
theorem run : θ_run defs (onTc (τ := τ) (main (F := Ideal))) ⟨m, fun _ => 0, ρ⟩ fun r => ∀ c : Dev nD,
      r.2.mem ((c : Thread nD τ).loc main_v8_0) = GH m c
      ∧ r.2.mem ((c : Thread nD τ).loc main_v8_1) = GC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Blocks

end
-- ==== Proof.lean ====
/-
  An LSTM cell over a batch of 32768 rows, as a tiled kernel and as the plain formula, computes the same two arrays on
  the extended reals.

  For batch row `b`, gate `g` and hidden unit `u` let
      s b g u = Σ_k x[b,k]·Wi[g,u,k] + bi[g,u] + Σ_k h0[b,k]·Wh[g,u,k] + bh[g,u].
  Both programs return  c1[b,u] = σ(s b 1 u)·c0[b,u] + σ(s b 0 u)·tanh(s b 2 u)  and  h1[b,u] = σ(s b 3 u)·tanh(c1[b,u]),
  σ the logistic function. The plain program forms `s` with two contractions over the feature axis and adds the biases
  one after the other; it spells σ out as `1 / (1 + e^(-t))`. The kernel re-lays each weight tensor as a
  `[feature, 4·512]` slab (flatten the gate and unit axes, transpose; the rounding to bf16 is the identity here) and adds
  the two biases into one row beforehand; at each of 32 grid points it takes 1024 batch rows and, in two trips of 512
  rows, multiplies them with the slabs, adds the two products and then the bias row, slices the four gates out of the
  2048 columns, and applies the logistic function and the hyperbolic tangent.

  The two sides differ only in the order in which the four terms of `s` are added — (products) + (biases) against
  product, bias, product, bias — and addition on the extended reals is commutative and associative, infinities included,
  so no input need be finite; σ as an operation is by definition its spelling; a product into a zero accumulator is the
  contraction's sum. The modules: `Cell` states the cell and shows one batch row against the slabs is the cell
  (`Regroup` is the law); `RefCell` reads the plain program's stages as the cell; `KerCell` reads one trip's three
  payloads at an element; `Pieces` reads the two output blocks back from the pieces the trips store; `HostSide` reads
  the slabs and the bias row; `Blocks` puts the 32 blocks together into the result arrays.
-/
import proofs.«136543_j43688407335067_2_alg».proof.Defs
import proofs.«136543_j43688407335067_2_alg».proof.Proof.Gen.Kernel
import proofs.«136543_j43688407335067_2_alg».proof.Proof.Gen.Kernel.Skeleton
import proofs.«136543_j43688407335067_2_alg».proof.Proof.Gen.Kernel.Loops
import proofs.«136543_j43688407335067_2_alg».proof.Proof.Gen.Kernel.Launch
import proofs.«136543_j43688407335067_2_alg».proof.Proof.Gen.Kernel.Points
import proofs.«136543_j43688407335067_2_alg».proof.Proof.Gen.Kernel.Frame
import proofs.«136543_j43688407335067_2_alg».proof.Proof.Gen.KernelIdeal
import proofs.«136543_j43688407335067_2_alg».proof.Proof.Gen.KernelIdeal.Skeleton
import proofs.«136543_j43688407335067_2_alg».proof.Proof.Gen.KernelIdeal.Loops
import proofs.«136543_j43688407335067_2_alg».proof.Proof.Gen.KernelIdeal.Launch
import proofs.«136543_j43688407335067_2_alg».proof.Proof.Gen.KernelIdeal.Points
import proofs.«136543_j43688407335067_2_alg».proof.Proof.Gen.KernelIdeal.Frame
import proofs.«136543_j43688407335067_2_alg».proof.Proof.Gen.ReferenceIdeal
import proofs.«136543_j43688407335067_2_alg».proof.Proof.Gen.Pre_finite_inputs
import proofs.«136543_j43688407335067_2_alg».proof.Proof.Gen.KernelIdeal.Value
import proofs.«136543_j43688407335067_2_alg».proof.Proof.Gen.ReferenceIdeal.Run
import proofs.«136543_j43688407335067_2_alg».proof.Proof.Gen.ReferenceIdeal.Read
import proofs.«136543_j43688407335067_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals, -/
theorem frame_kernelIdeal : Cert.frame_KernelIdeal := fun m ρ _ => Cert.KernelIdeal.Gen.frame m ρ

/-- and the plain program: its run, with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote none of its operations. -/
theorem preserves : Cert.preserves_Kernel_KernelIdeal := trivial

/-- From memories that agree on the seven arguments both programs end with the plain program's two stages of those
    arguments in their results: the kernel's by its blocks, the plain program's by its run. -/
theorem algebraic : Cert.algebraic_KernelIdeal_ReferenceIdeal := by
  intro m ρ m' ρ' _ hagree
  have eH : ∀ c : Dev Cert.ReferenceIdeal.nD, Cert.ReferenceIdeal.Value.res_main_v40 m' c = Cert.KernelIdeal.Blocks.GH m c := fun c => by
    obtain ⟨h0, h1, h2, h3, h4, h5, h6⟩ := hagree c
    rw [Cert.ReferenceIdeal.Read.val_main_v40_eq, h0, h1, h2, h3, h4, h5, h6]
  have eC : ∀ c : Dev Cert.ReferenceIdeal.nD,
      Cert.ReferenceIdeal.Read.val_main_v38 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        = Cert.KernelIdeal.Blocks.GC m c := fun c => by
    obtain ⟨h0, h1, h2, h3, h4, h5, h6⟩ := hagree c
    rw [h0, h1, h2, h3, h4, h5, h6]
  refine ⟨fun c => Cert.KernelIdeal.Blocks.GH m c, fun c => Cert.KernelIdeal.Blocks.GC m c, Cert.KernelIdeal.Blocks.run m ρ, ?_⟩
  exact (θ_run Cert.ReferenceIdeal.defs _ _).mono
    (fun _ h c => ⟨(h c).1.trans (eH c), ((h c).2.1.trans (Cert.ReferenceIdeal.Read.val_main_v38_eq _ _ _ _ _ _ _)).trans (eC c), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
